-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S1600000 : Shape := ⟨1, ![1600000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : FVec F S64x128 .f32) (main_arg2 : FVec F S64 .f32) (main_arg3 : FVec F S64x64 .f32) (main_arg4 : FVec F S64 .f32) (main_arg5 : IVec S1600000 32) (main_arg6 : IVec S1600000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S128x64 : Shape := ⟨2, ![128, 64]⟩
abbrev S1x64 : Shape := ⟨2, ![1, 64]⟩
abbrev S6400x64 : Shape := ⟨2, ![6400, 64]⟩

abbrev nBuf : Space → Nat
  | .hbm => 39
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S50000x64, .f32⟩
  | .hbm, ⟨18, _⟩ => ⟨S1600000x1, .i32⟩
  | .hbm, ⟨19, _⟩ => ⟨S50000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S128x64, .f32⟩
  | .hbm, ⟨30, _⟩ => ⟨S64x64, .f32⟩
  | .hbm, ⟨31, _⟩ => ⟨S64x64, .bf16⟩
  | .hbm, ⟨32, _⟩ => ⟨S64x64, .f32⟩
  | .hbm, ⟨33, _⟩ => ⟨S64x64, .bf16⟩
  | .hbm, ⟨34, _⟩ => ⟨S64x64, .f32⟩
  | .hbm, ⟨35, _⟩ => ⟨S64x64, .bf16⟩
  | .hbm, ⟨36, _⟩ => ⟨S1x64, .f32⟩
  | .hbm, ⟨37, _⟩ => ⟨S1x64, .f32⟩
  | .hbm, ⟨38, _⟩ => ⟨S1600000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S64x64, .bf16⟩
  | .local _ .vmem, ⟨8, _⟩ => ⟨S1x64, .f32⟩
  | .local _ .vmem, ⟨9, _⟩ => ⟨S6400x64, .f32⟩
  | .local _ .vmem, ⟨10, _⟩ => ⟨S6400x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  transposes_S64x128_S128x64_1_0 : S64x128.Transposes [1, 0] S128x64
  slices_S128x64_S64x64_0_0 : S128x64.Slices ![0, 0] S64x64
  bitsLt_bf16_f32 : FTy.bits .bf16 < FTy.bits .f32
  slices_S128x64_S64x64_64_0 : S128x64.Slices ![64, 0] S64x64
  transposes_S64x64_S64x64_1_0 : S64x64.Transposes [1, 0] S64x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S6400x64_S64x64_S6400x64_1_0_0_1_n_n_wf : DotDims.WF S6400x64 S64x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S1600000x64.size a
  hwx0_7 : ∀ i : grid0.Coords, EltTy.bits .f32 = 32 ∨ (Rect.block (s := S1600000x64) S6400x64.size (cc0_transform_7 i) (hinb0_7 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf

abbrev win0_0 : Pipeline.Window sig grid0 :=
  Pipeline.Window.ofSpec (Memref.whole main_v6) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x128 : Shape := ⟨2, ![64, 128]⟩
abbrev S64 : Shape := ⟨1, ![64]⟩
abbrev S64x64 : Shape := ⟨2, ![64, 64]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S128x64 : Shape := ⟨2, ![128, 64]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S50000x64, .f32⟩
  | .hbm, ⟨18, _⟩ => ⟨S1600000x1, .i32⟩
  | .hbm, ⟨19, _⟩ => ⟨S50000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x128, .f32⟩
  | .hbm, ⟨30, _⟩ => ⟨S128x64, .f32⟩
  | .hbm, ⟨31, _⟩ => ⟨S1600000x64, .f32⟩
  | .hbm, ⟨32, _⟩ => ⟨S1x64, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S1600000x64, .f32⟩
  | .hbm, ⟨37, _⟩ => ⟨S1600000x64, .f32⟩
  | .hbm, ⟨38, _⟩ => ⟨S64x64, .f32⟩
  | .hbm, ⟨39, _⟩ => ⟨S1600000x64, .f32⟩
  | .hbm, ⟨40, _⟩ => ⟨S1x64, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S1600000x64, .f32⟩
  | .hbm, ⟨45, _⟩ => ⟨S1600000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  concatenates_S1600000x64_S1600000x64_S1600000x128_d1 : Shape.Concatenates [S1600000x64, S1600000x64] S1600000x128 1
  transposes_S64x128_S128x64_1_0 : S64x128.Transposes [1, 0] S128x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  transposes_S64x64_S64x64_1_0 : S64x64.Transposes [1, 0] S64x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf

class Facts : Prop extends Facts₀ where

variable [Facts]
-- ==== Proof.Spec.lean ====
/-
  The value every edge row ends with: a two-layer perceptron with rectified units.

  An edge row carries two vectors of 64 entries, `gr` (the source node's features) and `nr` (the sum of the features over
  the owner's neighbourhood). The first layer's weight matrix `W1` has 64 rows and 128 columns: output channel `c`
  weighs `gr` by the first 64 columns of row `c` and `nr` by the last 64, adds the bias `B1 c` and clips at zero. The
  second layer weighs the 64 hidden values by row `c` of `W2`, adds `B2 c` and clips at zero again.

  Written as TWO sums of 64 products the first layer is what a computation on the two halves separately produces;
  written as ONE sum of 128 products over the two vectors laid end to end it is what a computation on the joined
  vector produces. The two agree because a sum over 128 positions is the sum over the first 64 plus the sum over the
  last 64 (`sum_halves`): only the commutative-monoid structure of addition is used, so the law holds at every extended
  real, infinite ones included, and nothing is assumed of the inputs.
-/
import Idealize.ShloMosaic.Lib.ValueIdx
import Idealize.ShloMosaic.PureOps.Ideal.Laws

noncomputable section

namespace Cert.EdgeMlp

open Idealize.ShloMosaic Idealize.ShloMosaic.ValueIdx

/-- The first layer at output channel `c`: the two half-rows weighed by the two halves of row `c` of `W1`, the bias
    added, clipped at zero. -/
def layer1 (gr nr : Fin 64 → EReal) (W1 : Fin 64 → Fin 128 → EReal) (B1 : Fin 64 → EReal) (c : Fin 64) : EReal :=
  max ((∑ j : Fin 64, gr j * W1 c (Fin.castAdd 64 j) + ∑ j : Fin 64, nr j * W1 c (Fin.natAdd 64 j)) + B1 c) 0

/-- The second layer at output channel `c`: the hidden values weighed by row `c` of `W2`, the bias added, clipped at
    zero. -/
def layer2 (h : Fin 64 → EReal) (W2 : Fin 64 → Fin 64 → EReal) (B2 : Fin 64 → EReal) (c : Fin 64) : EReal :=
  max ((∑ k : Fin 64, h k * W2 c k) + B2 c) 0

/-- Both layers: one edge row's output at channel `c`. -/
def mlp (gr nr : Fin 64 → EReal) (W1 : Fin 64 → Fin 128 → EReal) (B1 : Fin 64 → EReal)
    (W2 : Fin 64 → Fin 64 → EReal) (B2 : Fin 64 → EReal) (c : Fin 64) : EReal :=
  layer2 (layer1 gr nr W1 B1) W2 B2 c

/-- The whole result: entry `(e, c)` is the perceptron of row `e` of the two edge arrays `g` and `ns` at channel `c`,
    the weights read in their stored layout (`w1` is 64 by 128, `w2` is 64 by 64, output channel first). -/
def edgeOut (g ns : (⟨2, ![1600000, 64]⟩ : Shape).Idx → EReal) (w1 : (⟨2, ![64, 128]⟩ : Shape).Idx → EReal)
    (b1 : (⟨1, ![64]⟩ : Shape).Idx → EReal) (w2 : (⟨2, ![64, 64]⟩ : Shape).Idx → EReal)
    (b2 : (⟨1, ![64]⟩ : Shape).Idx → EReal) : (⟨2, ![1600000, 64]⟩ : Shape).Idx → EReal :=
  fun i => mlp (fun j => g (ix2 ⟨(i 0).val, idx2_lt0 i⟩ j)) (fun j => ns (ix2 ⟨(i 0).val, idx2_lt0 i⟩ j))
    (fun c k => w1 (ix2 c k)) (fun c => b1 (ix1 c)) (fun c k => w2 (ix2 c k)) (fun c => b2 (ix1 c)) ⟨(i 1).val, idx2_lt1 i⟩

/-- The whole result at the entry with coordinates `(e, c)`. -/
theorem edgeOut_apply (g ns : (⟨2, ![1600000, 64]⟩ : Shape).Idx → EReal) (w1 : (⟨2, ![64, 128]⟩ : Shape).Idx → EReal)
    (b1 : (⟨1, ![64]⟩ : Shape).Idx → EReal) (w2 : (⟨2, ![64, 64]⟩ : Shape).Idx → EReal)
    (b2 : (⟨1, ![64]⟩ : Shape).Idx → EReal) (e : Fin 1600000) (c : Fin 64) :
    edgeOut g ns w1 b1 w2 b2 (ix2 e c)
      = mlp (fun j => g (ix2 e j)) (fun j => ns (ix2 e j)) (fun c k => w1 (ix2 c k)) (fun c => b1 (ix1 c))
          (fun c k => w2 (ix2 c k)) (fun c => b2 (ix1 c)) c := rfl

/-- A sum over 128 positions is the sum over the first 64 plus the sum over the last 64. -/
theorem sum_halves (f : Fin 128 → EReal) :
    ∑ k : Fin 128, f k = ∑ j : Fin 64, f (Fin.castAdd 64 j) + ∑ j : Fin 64, f (Fin.natAdd 64 j) :=
  Fin.sum_univ_add (a := 64) (b := 64) f

end Cert.EdgeMlp

end
-- ==== Proof.RefIsSpec.lean ====
/-
  The reference's result, entry by entry, is the perceptron of the edge rows.

  The reference lays the two edge arrays end to end into one array of 128 columns and multiplies it by the transposed
  first-layer weights: entry `(e, c)` of that product is a sum over 128 positions of the joined row `e` against row `c`
  of the weights. Positions below 64 fall in the first array and positions from 64 on in the second, 64 less
  (`joined_left`, `joined_right`), so the sum over the two halves (`EdgeMlp.sum_halves`) is the first layer's two sums.
  Each bias reaches every row through a broadcast of a one-row matrix; the clip is a maximum with a splat of the zero
  word, which is the real zero; the second layer is a product with the transposed second-layer weights. The two edge
  arrays themselves (a gather of the node features, and a gather of their segment sums) are never opened: they enter
  only as the arrays `val_main_v6` and `val_main_v16`.
-/
import proofs.«160531_j44933947850816_1_alg».proof.Proof.Gen.ReferenceIdeal.Read
import proofs.«160531_j44933947850816_1_alg».proof.Proof.Spec
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.EdgeMlp

variable (x0 : (⟨S50000x64, .f32⟩ : BufTy).Contents (Elt Ideal)) (x1 : (⟨S64x128, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 x6 : (⟨S1600000, .i32⟩ : BufTy).Contents (Elt Ideal))

/-- A position below 64 of the joined row is that position of the first edge array's row. -/
theorem joined_left (e : Fin 1600000) (j : Fin 64) :
    val_main_v17 (F := Ideal) x0 x5 x6 (ix2 e (Fin.castAdd 64 j)) = val_main_v6 (F := Ideal) x0 x5 (ix2 e j) := by
  unfold val_main_v17
  generalize val_main_v6 (F := Ideal) x0 x5 = a
  generalize val_main_v16 (F := Ideal) x0 x5 x6 = b
  exact concatenate_pair_apply_left _ a b _ (ix2 e (Fin.castAdd 64 j)) rfl (ix2 e j)
    (fun d => match d with
      | ⟨0, _⟩ => rfl
      | ⟨1, _⟩ => rfl)

/-- A position from 64 on of the joined row is that position, 64 less, of the second edge array's row. -/
theorem joined_right (e : Fin 1600000) (j : Fin 64) :
    val_main_v17 (F := Ideal) x0 x5 x6 (ix2 e (Fin.natAdd 64 j)) = val_main_v16 (F := Ideal) x0 x5 x6 (ix2 e j) := by
  unfold val_main_v17
  generalize val_main_v6 (F := Ideal) x0 x5 = a
  generalize val_main_v16 (F := Ideal) x0 x5 x6 = b
  exact concatenate_pair_apply_right _ a b _ (ix2 e (Fin.natAdd 64 j)) rfl rfl (ix2 e j)
    (fun d hd => match d, hd with
      | ⟨0, _⟩, _ => rfl
      | ⟨1, _⟩, hd => (hd (Fin.ext rfl)).elim)
    (Nat.add_comm _ _)

/-- The transposed first-layer weights at `(k, c)` are the stored weights at `(c, k)`. -/
theorem w1t_apply (k : Fin 128) (c : Fin 64) : val_main_v18 (F := Ideal) x1 (ix2 k c) = x1 (ix2 c k) := by
  rw [val_main_v18_apply]
  exact congrArg x1 (funext fun a => Fin.ext (by
    match a with
    | ⟨0, _⟩ => rfl
    | ⟨1, _⟩ => rfl))

/-- The transposed second-layer weights at `(k, c)` are the stored weights at `(c, k)`. -/
theorem w2t_apply (k : Fin 64) (c : Fin 64) : val_main_v24 (F := Ideal) x3 (ix2 k c) = x3 (ix2 c k) := by
  rw [val_main_v24_apply]
  exact congrArg x3 (funext fun a => Fin.ext (by
    match a with
    | ⟨0, _⟩ => rfl
    | ⟨1, _⟩ => rfl))

/-- The first bias, broadcast over the rows, at `(e, c)` is its entry `c`. -/
theorem b1_apply (e : Fin 1600000) (c : Fin 64) : val_main_v21 (F := Ideal) x2 (ix2 e c) = x2 (ix1 c) := by
  rw [val_main_v21_apply, val_main_v20_apply]
  exact congrArg x2 (funext fun a => Fin.ext (by
    match a with
    | ⟨0, _⟩ => rfl))

/-- The second bias, broadcast over the rows, at `(e, c)` is its entry `c`. -/
theorem b2_apply (e : Fin 1600000) (c : Fin 64) : val_main_v27 (F := Ideal) x4 (ix2 e c) = x4 (ix1 c) := by
  rw [val_main_v27_apply, val_main_v26_apply]
  exact congrArg x4 (funext fun a => Fin.ext (by
    match a with
    | ⟨0, _⟩ => rfl))

/-- The first clip's bound is the real zero everywhere. -/
theorem zero0_apply (i : S1600000x64.Idx) : val_main_call0_v0 (F := Ideal) i = 0 := by
  rw [val_main_call0_v0_apply, val_main_call0_cst_apply]
  exact Ideal.ofBits_zero_f32

/-- The second clip's bound is the real zero everywhere. -/
theorem zero1_apply (i : S1600000x64.Idx) : val_main_call1_v0 (F := Ideal) i = 0 := by
  rw [val_main_call1_v0_apply, val_main_call1_cst_apply]
  exact Ideal.ofBits_zero_f32

/-- The hidden array at `(e, k)` is the first layer of row `e` of the two edge arrays at channel `k`: the product's sum
    over 128 positions, split into its halves. -/
theorem hidden_apply (e : Fin 1600000) (k : Fin 64) :
    val_main_v23 (F := Ideal) x0 x1 x2 x5 x6 (ix2 e k)
      = layer1 (fun j => val_main_v6 (F := Ideal) x0 x5 (ix2 e j)) (fun j => val_main_v16 (F := Ideal) x0 x5 x6 (ix2 e j))
          (fun c q => x1 (ix2 c q)) (fun c => x2 (ix1 c)) k := by
  have hl : ∀ q : Fin 128, lidx_main_v19 (ix2 e k) q = ix2 e q := fun q => funext fun a => Fin.ext (by
    match a with
    | ⟨0, _⟩ => rfl
    | ⟨1, _⟩ => rfl)
  have hr : ∀ q : Fin 128, ridx_main_v19 (ix2 e k) q = ix2 q k := fun q => funext fun a => Fin.ext (by
    match a with
    | ⟨0, _⟩ => rfl
    | ⟨1, _⟩ => rfl)
  rw [val_main_v23_apply, val_main_v22_apply, val_main_v19_apply, b1_apply, zero0_apply]
  simp only [hl, hr, w1t_apply]
  rw [sum_halves]
  simp only [joined_left, joined_right]
  rfl

/-- THE REFERENCE'S RESULT is the perceptron of the two edge arrays' rows. -/
theorem result_eq :
    val_main_v29 (F := Ideal) x0 x1 x2 x3 x4 x5 x6
      = edgeOut (val_main_v6 (F := Ideal) x0 x5) (val_main_v16 (F := Ideal) x0 x5 x6) x1 x2 x3 x4 := by
  funext i
  obtain ⟨e, c, rfl⟩ : ∃ (e : Fin 1600000) (c : Fin 64), i = ix2 e c := ⟨i 0, i 1, eq_ix2 i⟩
  have hl : ∀ q : Fin 64, lidx_main_v25 (ix2 e c) q = ix2 e q := fun q => funext fun a => Fin.ext (by
    match a with
    | ⟨0, _⟩ => rfl
    | ⟨1, _⟩ => rfl)
  have hr : ∀ q : Fin 64, ridx_main_v25 (ix2 e c) q = ix2 q c := fun q => funext fun a => Fin.ext (by
    match a with
    | ⟨0, _⟩ => rfl
    | ⟨1, _⟩ => rfl)
  rw [edgeOut_apply, val_main_v29_apply, val_main_v28_apply, val_main_v25_apply, b2_apply, zero1_apply]
  simp only [hl, hr, w2t_apply, hidden_apply]
  rfl

end Cert.ReferenceIdeal.RefValue

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KernelBody.lean ====
/-
  What the kernel body stores, entry by entry, is the perceptron of the block's rows.

  At one grid point the body holds a block of 6400 rows of each edge array, the two halves of the transposed first-layer
  weights, the transposed second-layer weights, and the two biases as one-row matrices. It forms two products of the
  row blocks with the two weight halves, adds them and the first bias (spread over the rows), clips at zero, multiplies
  by the second weights, adds the second bias and clips again. On the extended reals a change of float format is the
  identity, a shape cast to the same shape is the identity, and a product into the zero accumulator is the plain sum of
  products (`block_product`). So entry `(p, c)` of what is stored depends on row `p` of the two row blocks only, and is
  `EdgeMlp.mlp` of that row — once the weight and bias blocks are known entry by entry (the hypotheses `h2 … h6`).
-/
import proofs.«160531_j44933947850816_1_alg».proof.Proof.Gen.KernelIdeal.Skeleton
import proofs.«160531_j44933947850816_1_alg».proof.Proof.Spec
import proofs.«160531_j44933947850816_1_alg».proof.Proof.LibPlainProduct
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open Cert.EdgeMlp

/-- Entry `(p, c)` of a 6400-by-64 block times a 64-by-64 matrix, into the zero accumulator, is the sum over `k` of
    the block's `(p, k)` times the matrix's `(k, c)`: the kernel's dimension numbers contract the block's columns with
    the matrix's rows. -/
theorem block_product {φ₁ φ₂ : FTy} (l : FVec Ideal S6400x64 φ₁) (r : FVec Ideal S64x64 φ₂) (p : Fin 6400) (c : Fin 64) :
    matmul dot_S6400x64_S64x64_S6400x64_1_0_0_1_n_n none l r (constant (F := Ideal) S6400x64 .f32 0x00000000#32) (ix2 p c)
      = ∑ k : Fin 64, l (ix2 p k) * r (ix2 k c) :=
  Cert.PlainProduct.matmul_zero_entry (M := 6400) (K := 64) (N := 64) dot_S6400x64_S64x64_S6400x64_1_0_0_1_n_n rfl rfl
    (fun j q => by
      unfold DotDims.lhsIdx
      rw [dif_neg (show ¬(0 : Fin S6400x64.rank) ∈ dot_S6400x64_S64x64_S6400x64_1_0_0_1_n_n.lhsBatch by decide),
        dif_pos (show (0 : Fin S6400x64.rank) ∈ dot_S6400x64_S64x64_S6400x64_1_0_0_1_n_n.lhsNonContracting by decide)]
      rfl)
    (fun j q => dot_S6400x64_S64x64_S6400x64_1_0_0_1_n_n.lhsIdx_val_of_single rfl j q)
    (fun j q => dot_S6400x64_S64x64_S6400x64_1_0_0_1_n_n.rhsIdx_val_of_single rfl j q)
    (fun j q => by
      unfold DotDims.rhsIdx
      rw [dif_neg (show ¬(1 : Fin S64x64.rank) ∈ dot_S6400x64_S64x64_S6400x64_1_0_0_1_n_n.rhsBatch by decide),
        dif_pos (show (1 : Fin S64x64.rank) ∈ dot_S6400x64_S64x64_S6400x64_1_0_0_1_n_n.rhsNonContracting by decide)]
      rfl)
    l r p c

/-- The second layer over ANY hidden block `H`: its product with the second weights, the second bias spread over the
    rows, the clip — at `(p, c)` the second layer of row `p` of `H`. -/
theorem second_layer_entry (H : FVec Ideal S6400x64 .f32) (x5 : FVec Ideal S64x64 .bf16) (x6 : FVec Ideal S1x64 .f32)
    (W2 : Fin 64 → Fin 64 → EReal) (B2 : Fin 64 → EReal)
    (h5 : ∀ k c : Fin 64, x5 (ix2 k c) = W2 c k) (h6 : ∀ c : Fin 64, x6 (ix2 (0 : Fin 1) c) = B2 c)
    (p : Fin 6400) (c : Fin 64) :
    maximumf (addf (matmul dot_S6400x64_S64x64_S6400x64_1_0_0_1_n_n none (truncf .bf16 H bitsLt_bf16_f32) (shapeCast S64x64 x5 shapeCasts_S64x64_S64x64)
          (constant (F := Ideal) S6400x64 .f32 0x00000000#32))
        (broadcastTo S6400x64 (shapeCast S1x64 x6 shapeCasts_S1x64_S1x64) broadcasts_S1x64_S6400x64))
      (broadcast S6400x64 (Scalar.ofBits .f32 0x00000000#32 : Ideal .f32)) (ix2 p c)
      = layer2 (fun k => H (ix2 p k)) W2 B2 c := by
  rw [maximumf_apply, addf_apply, block_product, broadcast_apply, shapeCast_self, shapeCast_self,
    broadcastTo_1b_ab_apply, h6]
  simp only [truncf_apply, h5]
  show max _ (Ideal.ofBits .f32 0x00000000#32) = _
  rw [Ideal.ofBits_zero_f32]
  rfl

/-- The hidden block at `(p, k)`: the two products of the row blocks with the two weight halves, added, the first
    bias spread over the rows, the clip — the first layer of row `p` of the two row blocks at channel `k`. -/
theorem hidden_entry (x0 x1 : FVec Ideal S6400x64 .f32) (x2 x3 : FVec Ideal S64x64 .bf16) (x4 : FVec Ideal S1x64 .f32)
    (W1 : Fin 64 → Fin 128 → EReal) (B1 : Fin 64 → EReal)
    (h2 : ∀ j k : Fin 64, x2 (ix2 j k) = W1 k (Fin.castAdd 64 j)) (h3 : ∀ j k : Fin 64, x3 (ix2 j k) = W1 k (Fin.natAdd 64 j))
    (h4 : ∀ k : Fin 64, x4 (ix2 (0 : Fin 1) k) = B1 k)
    (p : Fin 6400) (k : Fin 64) :
    maximumf (addf (addf
          (matmul dot_S6400x64_S64x64_S6400x64_1_0_0_1_n_n none (truncf .bf16 (shapeCast S6400x64 x0 shapeCasts_S6400x64_S6400x64) bitsLt_bf16_f32)
            (shapeCast S64x64 x2 shapeCasts_S64x64_S64x64) (constant (F := Ideal) S6400x64 .f32 0x00000000#32))
          (matmul dot_S6400x64_S64x64_S6400x64_1_0_0_1_n_n none (truncf .bf16 (shapeCast S6400x64 x1 shapeCasts_S6400x64_S6400x64) bitsLt_bf16_f32)
            (shapeCast S64x64 x3 shapeCasts_S64x64_S64x64) (constant (F := Ideal) S6400x64 .f32 0x00000000#32)))
        (broadcastTo S6400x64 (shapeCast S1x64 x4 shapeCasts_S1x64_S1x64) broadcasts_S1x64_S6400x64))
      (broadcast S6400x64 (Scalar.ofBits .f32 0x00000000#32 : Ideal .f32)) (ix2 p k)
      = layer1 (fun j => x0 (ix2 p j)) (fun j => x1 (ix2 p j)) W1 B1 k := by
  rw [maximumf_apply, addf_apply, addf_apply, block_product, block_product, broadcast_apply, shapeCast_self,
    shapeCast_self, shapeCast_self, shapeCast_self, shapeCast_self, broadcastTo_1b_ab_apply, h4]
  simp only [truncf_apply, h2, h3]
  show max _ (Ideal.ofBits .f32 0x00000000#32) = _
  rw [Ideal.ofBits_zero_f32]
  rfl

/-- WHAT THE BODY STORES at `(p, c)`, from the blocks it loads: the perceptron of row `p` of the two row blocks at
    channel `c`. -/
theorem stored_entry (x0 x1 : FVec Ideal S6400x64 .f32) (x2 x3 : FVec Ideal S64x64 .bf16) (x4 : FVec Ideal S1x64 .f32)
    (x5 : FVec Ideal S64x64 .bf16) (x6 : FVec Ideal S1x64 .f32)
    (W1 : Fin 64 → Fin 128 → EReal) (B1 : Fin 64 → EReal) (W2 : Fin 64 → Fin 64 → EReal) (B2 : Fin 64 → EReal)
    (h2 : ∀ j k : Fin 64, x2 (ix2 j k) = W1 k (Fin.castAdd 64 j)) (h3 : ∀ j k : Fin 64, x3 (ix2 j k) = W1 k (Fin.natAdd 64 j))
    (h4 : ∀ k : Fin 64, x4 (ix2 (0 : Fin 1) k) = B1 k)
    (h5 : ∀ k c : Fin 64, x5 (ix2 k c) = W2 c k) (h6 : ∀ c : Fin 64, x6 (ix2 (0 : Fin 1) c) = B2 c)
    (p : Fin 6400) (c : Fin 64) :
    k0_pay1 (F := Ideal) x0 x1 x2 x3 x4 x5 x6 (ix2 p c)
      = mlp (fun j => x0 (ix2 p j)) (fun j => x1 (ix2 p j)) W1 B1 W2 B2 c := by
  unfold k0_pay1
  refine (second_layer_entry _ x5 x6 W2 B2 h5 h6 p c).trans ?_
  unfold mlp
  exact congrArg (fun h => layer2 h W2 B2 c) (funext fun k => hidden_entry x0 x1 x2 x3 x4 W1 B1 h2 h3 h4 p k)

end Cert.KernelIdeal.Body

end
-- ==== Proof.KernelEdgeArrays.lean ====
/-
  The two edge arrays the kernel's launch reads, as the host builds them before the launch.

  `gathered` holds, for each edge, the node features at the edge's source (a negative index has the node count added
  first); `nbGathered` holds the same features summed per owner — accumulated into zeros — and looked up at each edge's
  owner. Both are kept as whole arrays: nothing downstream depends on what a lookup or a segment sum is, only on the
  two programs performing the same ones.
-/
import proofs.«160531_j44933947850816_1_alg».proof.Proof.Gen.KernelIdeal.Frame
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-- Edge indices as the lookups take them: a negative index has the node count added, and the vector becomes a column. -/
def wrapped (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- The first edge array: the node features at each edge's source. -/
def gathered (x0 : FVec Ideal S50000x64 .f32) (x5 : IVec S1600000 32) : FVec Ideal S1600000x64 .f32 :=
  Host.gather gather_S50000x64_S1600000x1_S1600000x64_1_0_n_n_0_1_164 x0 (wrapped x5)

/-- The second edge array: the first one summed per owner (into zeros), looked up at each edge's owner. -/
def nbGathered (x0 : FVec Ideal S50000x64 .f32) (x5 x6 : IVec S1600000 32) : FVec Ideal S1600000x64 .f32 :=
  Host.gather gather_S50000x64_S1600000x1_S1600000x64_1_0_n_n_0_1_164
    (Host.scatterAdd scatter_S50000x64_S1600000x1_S1600000x64_1_0_0_1 (broadcastInDim S50000x64 ![] bcast_S_S50000x64 (constant (F := Ideal) S_ .f32 0x00000000#32))
      (broadcastInDim S1600000x1 ![0] bcast_S1600000_S1600000x1_0 x6) (gathered x0 x5))
    (wrapped x6)

variable (m : (ℓ : Loc nD τ sig) → Buf (Elt Ideal) ℓ)

/-- Window 0's array at the launch is the first edge array of the arguments. -/
theorem v6_eq (c : Dev nD) :
    (V m c main_v6 : FVec Ideal S1600000x64 .f32)
      = gathered (m ((c : Thread nD τ).loc main_arg0)) (m ((c : Thread nD τ).loc main_arg5)) := by
  unfold gathered wrapped
  dsimp only [V, hostOps0]
  after_results <;> rfl

set_option maxHeartbeats 2000000 in
/-- Window 1's array at the launch is the second edge array of the arguments. -/
theorem v16_eq (c : Dev nD) :
    (V m c main_v16 : FVec Ideal S1600000x64 .f32)
      = nbGathered (m ((c : Thread nD τ).loc main_arg0)) (m ((c : Thread nD τ).loc main_arg5)) (m ((c : Thread nD τ).loc main_arg6)) := by
  unfold nbGathered gathered wrapped
  dsimp only [V, hostOps0]
  after_results_simp <;> rfl

end Cert.KernelIdeal.Entry

end
-- ==== Proof.KernelParams.lean ====
/-
  The re-laid parameters the kernel's launch reads, entry by entry.

  Before the launch the host transposes the first-layer weights and cuts the transpose into its first 64 and last 64
  rows: entry `(j, k)` of the halves is the stored weight at `(k, j)` and at `(k, 64 + j)`. It transposes the
  second-layer weights: entry `(k, c)` is the stored weight at `(c, k)`. Each bias becomes a one-row matrix whose entry
  `(0, k)` is the bias's entry `k`. The changes of float format on the way are the identity on the extended reals.
-/
import proofs.«160531_j44933947850816_1_alg».proof.Proof.Gen.KernelIdeal.Frame
import Idealize.ShloMosaic.Lib.StableHlo.Run
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Window 2's array, the first 64 rows of the transposed first-layer weights: entry `(j, k)` is the stored `(k, j)`. -/
theorem v19_entry (c : Dev nD) (j k : Fin 64) :
    (V m c main_v19 : FVec Ideal S64x64 .bf16) (ix2 j k)
      = (m ((c : Thread nD τ).loc main_arg1) : FVec Ideal S64x128 .f32) (ix2 k (Fin.castAdd 64 j)) := by
  have e : @Eq (FVec Ideal S64x64 .bf16) (V m c main_v19)
      (truncf .bf16 (extractStridedSlice S64x64 ![0, 0]
          (transpose S128x64 [1, 0] (m ((c : Thread nD τ).loc main_arg1) : FVec Ideal S64x128 .f32) transposes_S64x128_S128x64_1_0)
          slices_S128x64_S64x64_0_0) bitsLt_bf16_f32) := by
    dsimp only [V, hostOps0]
    after_results <;> rfl
  rw [e, truncf_apply, slice2_axis0_eq, transpose_ix2_apply]
  exact congrArg _ (congrArg (ix2 k) (Fin.ext (Nat.zero_add _)))

/-- Window 3's array, the last 64 rows of the transposed first-layer weights: entry `(j, k)` is the stored `(k, 64 + j)`. -/
theorem v21_entry (c : Dev nD) (j k : Fin 64) :
    (V m c main_v21 : FVec Ideal S64x64 .bf16) (ix2 j k)
      = (m ((c : Thread nD τ).loc main_arg1) : FVec Ideal S64x128 .f32) (ix2 k (Fin.natAdd 64 j)) := by
  have e : @Eq (FVec Ideal S64x64 .bf16) (V m c main_v21)
      (truncf .bf16 (extractStridedSlice S64x64 ![64, 0]
          (transpose S128x64 [1, 0] (m ((c : Thread nD τ).loc main_arg1) : FVec Ideal S64x128 .f32) transposes_S64x128_S128x64_1_0)
          slices_S128x64_S64x64_64_0) bitsLt_bf16_f32) := by
    dsimp only [V, hostOps0]
    after_results <;> rfl
  rw [e, truncf_apply, slice2_axis0_eq, transpose_ix2_apply]
  rfl

/-- Window 5's array, the transposed second-layer weights: entry `(k, c)` is the stored `(c, k)`. -/
theorem v23_entry (c : Dev nD) (k q : Fin 64) :
    (V m c main_v23 : FVec Ideal S64x64 .bf16) (ix2 k q)
      = (m ((c : Thread nD τ).loc main_arg3) : FVec Ideal S64x64 .f32) (ix2 q k) := by
  have e : @Eq (FVec Ideal S64x64 .bf16) (V m c main_v23)
      (truncf .bf16 (transpose S64x64 [1, 0] (m ((c : Thread nD τ).loc main_arg3) : FVec Ideal S64x64 .f32) transposes_S64x64_S64x64_1_0)
          bitsLt_bf16_f32) := by
    dsimp only [V, hostOps0]
    after_results <;> rfl
  rw [e, truncf_apply, transpose_ix2_apply]

/-- Window 4's array, the first bias as one row: entry `(0, k)` is the bias's entry `k`. -/
theorem v24_entry (c : Dev nD) (k : Fin 64) :
    (V m c main_v24 : FVec Ideal S1x64 .f32) (ix2 (0 : Fin 1) k)
      = (m ((c : Thread nD τ).loc main_arg2) : FVec Ideal S64 .f32) (ix1 k) := by
  have e : (V m c main_v24 : FVec Ideal S1x64 .f32)
      = shapeCast S1x64 (m ((c : Thread nD τ).loc main_arg2) : FVec Ideal S64 .f32) shapeCasts_S64_S1x64 := by
    dsimp only [V, hostOps0]
    after_results <;> rfl
  rw [e, shapeCast_a_1a_apply]

/-- Window 6's array, the second bias as one row: entry `(0, q)` is the bias's entry `q`. -/
theorem v25_entry (c : Dev nD) (q : Fin 64) :
    (V m c main_v25 : FVec Ideal S1x64 .f32) (ix2 (0 : Fin 1) q)
      = (m ((c : Thread nD τ).loc main_arg4) : FVec Ideal S64 .f32) (ix1 q) := by
  have e : (V m c main_v25 : FVec Ideal S1x64 .f32)
      = shapeCast S1x64 (m ((c : Thread nD τ).loc main_arg4) : FVec Ideal S64 .f32) shapeCasts_S64_S1x64 := by
    dsimp only [V, hostOps0]
    after_results <;> rfl
  rw [e, shapeCast_a_1a_apply]

end Cert.KernelIdeal.Entry

end
-- ==== Proof.KernelBlocks.lean ====
/-
  Each window's block at a grid point, entry by entry.

  The launch walks 250 grid points. The windows of the two edge arrays and of the output move one block of 6400 rows
  down the row axis per point, so row `p` of their block at point `t` is row `6400 t + p` of the array; every parameter
  window stays at block zero, so its block is its whole array. The block indices are the printed index maps evaluated
  over the grid; an entry of a block sits at block index times block size plus its coordinate inside the block.
-/
import proofs.«160531_j44933947850816_1_alg».proof.Proof.Gen.KernelIdeal.Frame
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The printed index maps, decided over the 250 grid points: the two edge windows and the output window move one
    block down the row axis per point; every parameter window stays at block zero. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of window 0's block at point `t` is row `6400 t + p` of whatever array `A` the window reads. -/
theorem read_block0 (c : Dev nD) (A : Buf (Elt Ideal) ((c : Thread nD τ).loc main_v6)) (t : Fin cfg0.N) (p : Fin 6400) (j : Fin 64)
    (e : Fin 1600000) (he : e.val = t.val * 6400 + p.val) :
    ((cfg0.win 0).blk t).view.read (Elt Ideal) A (ix2 p j) = (A : FVec Ideal S1600000x64 .f32) (ix2 e j) := by
  obtain ⟨h0, h1, -⟩ := block_indices t
  show (A : FVec Ideal S1600000x64 .f32) (((cfg0.win 0).blk t).view.emb (ix2 p j)) = (A : FVec Ideal S1600000x64 .f32) (ix2 e j)
  refine congrArg (A : FVec Ideal S1600000x64 .f32) (funext fun a => Fin.ext ?_)
  match a with
  | ⟨0, _⟩ => show win0_0.index t (0 : Fin 2) * 6400 + 1 * p.val = e.val; rw [h0, he]; omega
  | ⟨1, _⟩ => show win0_0.index t (1 : Fin 2) * 64 + 1 * j.val = j.val; rw [h1]; omega

/-- The same for the block the launch finds: row `p` of window 0's block at point `t` is row `6400 t + p` of its array. -/
theorem block0_entry (c : Dev nD) (t : Fin cfg0.N) (p : Fin 6400) (j : Fin 64) (e : Fin 1600000)
    (he : e.val = t.val * 6400 + p.val) :
    (iblk m c 0 t : FVec Ideal S6400x64 .f32) (ix2 p j) = (V m c main_v6 : FVec Ideal S1600000x64 .f32) (ix2 e j) := by
  unfold iblk
  exact read_block0 c (V m c main_v6) t p j e he

/-- Row `p` of window 1's block at point `t` is row `6400 t + p` of whatever array `A` the window reads. -/
theorem read_block1 (c : Dev nD) (A : Buf (Elt Ideal) ((c : Thread nD τ).loc main_v16)) (t : Fin cfg0.N) (p : Fin 6400) (j : Fin 64)
    (e : Fin 1600000) (he : e.val = t.val * 6400 + p.val) :
    ((cfg0.win 1).blk t).view.read (Elt Ideal) A (ix2 p j) = (A : FVec Ideal S1600000x64 .f32) (ix2 e j) := by
  obtain ⟨-, -, h0, h1, -⟩ := block_indices t
  show (A : FVec Ideal S1600000x64 .f32) (((cfg0.win 1).blk t).view.emb (ix2 p j)) = (A : FVec Ideal S1600000x64 .f32) (ix2 e j)
  refine congrArg (A : FVec Ideal S1600000x64 .f32) (funext fun a => Fin.ext ?_)
  match a with
  | ⟨0, _⟩ => show win0_1.index t (0 : Fin 2) * 6400 + 1 * p.val = e.val; rw [h0, he]; omega
  | ⟨1, _⟩ => show win0_1.index t (1 : Fin 2) * 64 + 1 * j.val = j.val; rw [h1]; omega

/-- The same for the block the launch finds: row `p` of window 1's block at point `t` is row `6400 t + p` of its array. -/
theorem block1_entry (c : Dev nD) (t : Fin cfg0.N) (p : Fin 6400) (j : Fin 64) (e : Fin 1600000)
    (he : e.val = t.val * 6400 + p.val) :
    (iblk m c 1 t : FVec Ideal S6400x64 .f32) (ix2 p j) = (V m c main_v16 : FVec Ideal S1600000x64 .f32) (ix2 e j) := by
  unfold iblk
  exact read_block1 c (V m c main_v16) t p j e he

/-- Window 2's block at any point is the whole of whatever 64-by-64 array `A` the window reads. -/
theorem read_block2 (c : Dev nD) (A : Buf (Elt Ideal) ((c : Thread nD τ).loc main_v19)) (t : Fin cfg0.N) (j k : Fin 64) :
    ((cfg0.win 2).blk t).view.read (Elt Ideal) A (ix2 j k) = (A : FVec Ideal S64x64 .bf16) (ix2 j k) := by
  obtain ⟨-, -, -, -, h0, h1, -⟩ := block_indices t
  show (A : FVec Ideal S64x64 .bf16) (((cfg0.win 2).blk t).view.emb (ix2 j k)) = (A : FVec Ideal S64x64 .bf16) (ix2 j k)
  refine congrArg (A : FVec Ideal S64x64 .bf16) (funext fun a => Fin.ext ?_)
  match a with
  | ⟨0, _⟩ => show win0_2.index t (0 : Fin 2) * 64 + 1 * j.val = j.val; rw [h0]; omega
  | ⟨1, _⟩ => show win0_2.index t (1 : Fin 2) * 64 + 1 * k.val = k.val; rw [h1]; omega

/-- Window 2's block at any point is its whole array. -/
theorem block2_entry (c : Dev nD) (t : Fin cfg0.N) (j k : Fin 64) :
    (iblk m c 2 t : FVec Ideal S64x64 .bf16) (ix2 j k) = (V m c main_v19 : FVec Ideal S64x64 .bf16) (ix2 j k) := by
  unfold iblk
  exact read_block2 c (V m c main_v19) t j k

/-- Window 3's block at any point is the whole of whatever 64-by-64 array `A` the window reads. -/
theorem read_block3 (c : Dev nD) (A : Buf (Elt Ideal) ((c : Thread nD τ).loc main_v21)) (t : Fin cfg0.N) (j k : Fin 64) :
    ((cfg0.win 3).blk t).view.read (Elt Ideal) A (ix2 j k) = (A : FVec Ideal S64x64 .bf16) (ix2 j k) := by
  obtain ⟨-, -, -, -, -, -, h0, h1, -⟩ := block_indices t
  show (A : FVec Ideal S64x64 .bf16) (((cfg0.win 3).blk t).view.emb (ix2 j k)) = (A : FVec Ideal S64x64 .bf16) (ix2 j k)
  refine congrArg (A : FVec Ideal S64x64 .bf16) (funext fun a => Fin.ext ?_)
  match a with
  | ⟨0, _⟩ => show win0_3.index t (0 : Fin 2) * 64 + 1 * j.val = j.val; rw [h0]; omega
  | ⟨1, _⟩ => show win0_3.index t (1 : Fin 2) * 64 + 1 * k.val = k.val; rw [h1]; omega

/-- Window 3's block at any point is its whole array. -/
theorem block3_entry (c : Dev nD) (t : Fin cfg0.N) (j k : Fin 64) :
    (iblk m c 3 t : FVec Ideal S64x64 .bf16) (ix2 j k) = (V m c main_v21 : FVec Ideal S64x64 .bf16) (ix2 j k) := by
  unfold iblk
  exact read_block3 c (V m c main_v21) t j k

/-- Window 4's block at any point is the whole of whatever one-row array `A` the window reads. -/
theorem read_block4 (c : Dev nD) (A : Buf (Elt Ideal) ((c : Thread nD τ).loc main_v24)) (t : Fin cfg0.N) (k : Fin 64) :
    ((cfg0.win 4).blk t).view.read (Elt Ideal) A (ix2 (0 : Fin 1) k) = (A : FVec Ideal S1x64 .f32) (ix2 (0 : Fin 1) k) := by
  obtain ⟨-, -, -, -, -, -, -, -, h0, h1, -⟩ := block_indices t
  show (A : FVec Ideal S1x64 .f32) (((cfg0.win 4).blk t).view.emb (ix2 (0 : Fin 1) k)) = (A : FVec Ideal S1x64 .f32) (ix2 (0 : Fin 1) k)
  refine congrArg (A : FVec Ideal S1x64 .f32) (funext fun a => Fin.ext ?_)
  match a with
  | ⟨0, _⟩ => show win0_4.index t (0 : Fin 2) * 1 + 1 * 0 = 0; rw [h0]
  | ⟨1, _⟩ => show win0_4.index t (1 : Fin 2) * 64 + 1 * k.val = k.val; rw [h1]; omega

/-- Window 4's block at any point is its whole array. -/
theorem block4_entry (c : Dev nD) (t : Fin cfg0.N) (k : Fin 64) :
    (iblk m c 4 t : FVec Ideal S1x64 .f32) (ix2 (0 : Fin 1) k) = (V m c main_v24 : FVec Ideal S1x64 .f32) (ix2 (0 : Fin 1) k) := by
  unfold iblk
  exact read_block4 c (V m c main_v24) t k

/-- Window 5's block at any point is the whole of whatever 64-by-64 array `A` the window reads. -/
theorem read_block5 (c : Dev nD) (A : Buf (Elt Ideal) ((c : Thread nD τ).loc main_v23)) (t : Fin cfg0.N) (j k : Fin 64) :
    ((cfg0.win 5).blk t).view.read (Elt Ideal) A (ix2 j k) = (A : FVec Ideal S64x64 .bf16) (ix2 j k) := by
  obtain ⟨-, -, -, -, -, -, -, -, -, -, h0, h1, -⟩ := block_indices t
  show (A : FVec Ideal S64x64 .bf16) (((cfg0.win 5).blk t).view.emb (ix2 j k)) = (A : FVec Ideal S64x64 .bf16) (ix2 j k)
  refine congrArg (A : FVec Ideal S64x64 .bf16) (funext fun a => Fin.ext ?_)
  match a with
  | ⟨0, _⟩ => show win0_5.index t (0 : Fin 2) * 64 + 1 * j.val = j.val; rw [h0]; omega
  | ⟨1, _⟩ => show win0_5.index t (1 : Fin 2) * 64 + 1 * k.val = k.val; rw [h1]; omega

/-- Window 5's block at any point is its whole array. -/
theorem block5_entry (c : Dev nD) (t : Fin cfg0.N) (j k : Fin 64) :
    (iblk m c 5 t : FVec Ideal S64x64 .bf16) (ix2 j k) = (V m c main_v23 : FVec Ideal S64x64 .bf16) (ix2 j k) := by
  unfold iblk
  exact read_block5 c (V m c main_v23) t j k

/-- Window 6's block at any point is the whole of whatever one-row array `A` the window reads. -/
theorem read_block6 (c : Dev nD) (A : Buf (Elt Ideal) ((c : Thread nD τ).loc main_v25)) (t : Fin cfg0.N) (k : Fin 64) :
    ((cfg0.win 6).blk t).view.read (Elt Ideal) A (ix2 (0 : Fin 1) k) = (A : FVec Ideal S1x64 .f32) (ix2 (0 : Fin 1) k) := by
  obtain ⟨-, -, -, -, -, -, -, -, -, -, -, -, h0, h1, -⟩ := block_indices t
  show (A : FVec Ideal S1x64 .f32) (((cfg0.win 6).blk t).view.emb (ix2 (0 : Fin 1) k)) = (A : FVec Ideal S1x64 .f32) (ix2 (0 : Fin 1) k)
  refine congrArg (A : FVec Ideal S1x64 .f32) (funext fun a => Fin.ext ?_)
  match a with
  | ⟨0, _⟩ => show win0_6.index t (0 : Fin 2) * 1 + 1 * 0 = 0; rw [h0]
  | ⟨1, _⟩ => show win0_6.index t (1 : Fin 2) * 64 + 1 * k.val = k.val; rw [h1]; omega

/-- Window 6's block at any point is its whole array. -/
theorem block6_entry (c : Dev nD) (t : Fin cfg0.N) (k : Fin 64) :
    (iblk m c 6 t : FVec Ideal S1x64 .f32) (ix2 (0 : Fin 1) k) = (V m c main_v25 : FVec Ideal S1x64 .f32) (ix2 (0 : Fin 1) k) := by
  unfold iblk
  exact read_block6 c (V m c main_v25) t k

end Cert.KernelIdeal.Entry

end
-- ==== Proof.KernelValue.lean ====
/-
  The kernel's result array after the run is the perceptron of the edge rows.

  Grid point `t` writes back what the body stored, and that is block `t` of ONE function of the argument arrays
  (`result`): entry `(p, c)` of the stored block is the perceptron of row `p` of the two edge blocks, row `p` of the edge
  blocks at point `t` is row `6400 t + p` of the edge arrays, the parameter blocks are the re-laid parameters, and the
  output block's entry `(p, c)` sits at `(6400 t + p, c)` of the output array (`written_back`). Every row `r` of the
  output lies in the block of point `r / 6400` (`covered`), so the 250 blocks fill the array and the array IS `result`.
-/
import proofs.«160531_j44933947850816_1_alg».proof.Proof.Gen.KernelIdeal.Value
import proofs.«160531_j44933947850816_1_alg».proof.Proof.KernelBody
import proofs.«160531_j44933947850816_1_alg».proof.Proof.KernelEdgeArrays
import proofs.«160531_j44933947850816_1_alg».proof.Proof.KernelParams
import proofs.«160531_j44933947850816_1_alg».proof.Proof.KernelBlocks
import proofs.«160531_j44933947850816_1_alg».proof.Proof.Spec

noncomputable section

namespace Cert.KernelIdeal.Result

open Cert.KernelIdeal Cert.KernelIdeal.Gen Cert.KernelIdeal.Entry Cert.KernelIdeal.Body
open Idealize.ShloMosaic Idealize.ShloMosaic.TcCoe Idealize.SL.Sem Idealize.ShloMosaic.ValueIdx
open Idealize.ShloMosaic.Pipeline (Dat)
open Cert.EdgeMlp

variable (m : (ℓ : Loc nD τ sig) → Buf (Elt Ideal) ℓ) (ρ : Dev nD → PrngReg)

theorem zero_offsets : (![0, 0] : Fin 2 → Nat) = fun _ => 0 := funext fun a => by fin_cases a <;> rfl

/-- The result array as one function of the argument arrays: the perceptron, with the arguments' weights and biases,
    of the rows of the two edge arrays built from the node features and the two index vectors. -/
def result (c : Dev nD) : FVec Ideal S1600000x64 .f32 :=
  edgeOut (gathered (m ((c : Thread nD τ).loc main_arg0)) (m ((c : Thread nD τ).loc main_arg5))) (nbGathered (m ((c : Thread nD τ).loc main_arg0)) (m ((c : Thread nD τ).loc main_arg5)) (m ((c : Thread nD τ).loc main_arg6)))
    (m ((c : Thread nD τ).loc main_arg1)) (m ((c : Thread nD τ).loc main_arg2)) (m ((c : Thread nD τ).loc main_arg3)) (m ((c : Thread nD τ).loc main_arg4))

/-- WHAT POINT `t` WRITES BACK is block `t` of `result`. -/
theorem written_back (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zero_offsets]
  simp only [View.ld_unit_zero (S := S6400x64) zero_offsets, View.ld_unit_zero (S := S64x64) zero_offsets,
    View.ld_unit_zero (S := S1x64) zero_offsets]
  funext y
  obtain ⟨p, q, rfl⟩ : ∃ (p : Fin 6400) (q : Fin 64), y = ix2 p q := ⟨y 0, y 1, eq_ix2 y⟩
  obtain ⟨-, -, -, -, -, -, -, -, -, -, -, -, -, -, h0, h1⟩ := block_indices t
  have ht : t.val < 250 := Nat.lt_of_lt_of_eq t.isLt (show cfg0.N = 250 from N_0)
  have hp : p.val < 6400 := p.isLt
  have hrow : t.val * 6400 + p.val < 1600000 := by omega
  have hemb : ((cfg0.win 7).blk t).view.emb (ix2 p q) = ix2 (⟨t.val * 6400 + p.val, hrow⟩ : Fin 1600000) q :=
    funext fun a => Fin.ext (by
      match a with
      | ⟨0, _⟩ => show win0_7.index t (0 : Fin 2) * 6400 + 1 * p.val = t.val * 6400 + p.val; rw [h0]; omega
      | ⟨1, _⟩ => show win0_7.index t (1 : Fin 2) * 64 + 1 * q.val = q.val; rw [h1]; omega)
  show k0_pay1 (F := Ideal) (iblk m c 0 t) (iblk m c 1 t) (iblk m c 2 t) (iblk m c 3 t) (iblk m c 4 t) (iblk m c 5 t)
      (iblk m c 6 t) (ix2 p q) = result m c (((cfg0.win 7).blk t).view.emb (ix2 p q))
  rw [hemb]
  unfold result
  rw [edgeOut_apply]
  refine (stored_entry (iblk m c 0 t) (iblk m c 1 t) (iblk m c 2 t) (iblk m c 3 t) (iblk m c 4 t) (iblk m c 5 t) (iblk m c 6 t)
    (fun k j => ((m ((c : Thread nD τ).loc main_arg1)) : FVec Ideal S64x128 .f32) (ix2 k j))
    (fun k => ((m ((c : Thread nD τ).loc main_arg2)) : FVec Ideal S64 .f32) (ix1 k))
    (fun k j => ((m ((c : Thread nD τ).loc main_arg3)) : FVec Ideal S64x64 .f32) (ix2 k j))
    (fun k => ((m ((c : Thread nD τ).loc main_arg4)) : FVec Ideal S64 .f32) (ix1 k))
    (fun j k => (block2_entry m c t j k).trans (v19_entry m c j k))
    (fun j k => (block3_entry m c t j k).trans (v21_entry m c j k))
    (fun k => (block4_entry m c t k).trans (v24_entry m c k))
    (fun k j => (block5_entry m c t k j).trans (v23_entry m c k j))
    (fun k => (block6_entry m c t k).trans (v25_entry m c k))
    p q).trans ?_
  have e0 : (fun j : Fin 64 => (iblk m c 0 t : FVec Ideal S6400x64 .f32) (ix2 p j))
      = fun j => gathered (m ((c : Thread nD τ).loc main_arg0)) (m ((c : Thread nD τ).loc main_arg5)) (ix2 (⟨t.val * 6400 + p.val, hrow⟩ : Fin 1600000) j) :=
    funext fun j => (block0_entry m c t p j ⟨t.val * 6400 + p.val, hrow⟩ rfl).trans (congrFun (v6_eq m c) _)
  have e1 : (fun j : Fin 64 => (iblk m c 1 t : FVec Ideal S6400x64 .f32) (ix2 p j))
      = fun j => nbGathered (m ((c : Thread nD τ).loc main_arg0)) (m ((c : Thread nD τ).loc main_arg5)) (m ((c : Thread nD τ).loc main_arg6)) (ix2 (⟨t.val * 6400 + p.val, hrow⟩ : Fin 1600000) j) :=
    funext fun j => (block1_entry m c t p j ⟨t.val * 6400 + p.val, hrow⟩ rfl).trans (congrFun (v16_eq m c) _)
  rw [e0, e1]

/-- An index of the output array is in point `t`'s block iff each coordinate is in the block's range on its axis. -/
theorem mem_block (t : Fin cfg0.N) (i : S1600000x64.Idx) :
    i ∈ ((cfg0.win 7).blk t).view.set ↔ ∀ a : Fin 2, win0_7.index t a * S6400x64.size a ≤ (i a).val
      ∧ (i a).val < win0_7.index t a * S6400x64.size a + S6400x64.size a := by
  show i ∈ ((View.whole main_v26).slice (win0_7.rect t)).set ↔ _
  rw [View.set_slice_whole, Rect.mem_set_unit]
  exact Iff.rfl

/-- Every index of the output array is in the block of the point its row falls in: row `r` in point `r / 6400`. -/
theorem covered (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  have hN : cfg0.N = 250 := N_0
  have hq : (i 0).val / 6400 < cfg0.N := by rw [hN]; omega
  obtain ⟨-, -, -, -, -, -, -, -, -, -, -, -, -, -, h0, h1⟩ := block_indices ⟨(i 0).val / 6400, hq⟩
  refine ⟨⟨(i 0).val / 6400, hq⟩, flush0_7 _, ?_⟩
  rw [mem_block]
  intro a
  match a with
  | ⟨0, _⟩ =>
    show win0_7.index ⟨(i 0).val / 6400, hq⟩ (0 : Fin 2) * 6400 ≤ (i 0).val
      ∧ (i 0).val < win0_7.index ⟨(i 0).val / 6400, hq⟩ (0 : Fin 2) * 6400 + 6400
    rw [h0]
    show (i 0).val / 6400 * 6400 ≤ (i 0).val ∧ (i 0).val < (i 0).val / 6400 * 6400 + 6400
    omega
  | ⟨1, _⟩ =>
    show win0_7.index ⟨(i 0).val / 6400, hq⟩ (1 : Fin 2) * 64 ≤ (i 1).val
      ∧ (i 1).val < win0_7.index ⟨(i 0).val / 6400, hq⟩ (1 : Fin 2) * 64 + 64
    rw [h1]
    omega

/-- THE ARRAY after the run is `result`. -/
theorem final (c : Dev nD) : (dats m 0 c).arrAt 7 cfg0.N = result m c :=
  (dats m 0 c).arrAt_eq_of_cover 7 (result m c) (fun t _ => written_back m c t) covered

/-- The run, read: the result array at the perceptron of the edge rows, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩)
    (Cert.KernelIdeal.Value.run_blocks m ρ)

end Cert.KernelIdeal.Result

end
-- ==== Proof.EdgeArrays.lean ====
/-
  The two programs build the same two edge arrays.

  Both programs look the node features up at each edge's source, sum them per owner into zeros and look the sums up at
  each edge's owner, with the same wrapping of negative indices and the same dimension numbers; the two printed texts
  differ only in which program's copy of the shapes and dimension records they name. So the reference's two stages are
  the kernel side's two arrays, as terms.
-/
import proofs.«160531_j44933947850816_1_alg».proof.Proof.Gen.ReferenceIdeal.Read
import proofs.«160531_j44933947850816_1_alg».proof.Proof.KernelEdgeArrays

noncomputable section

namespace Cert.EdgeArrays

open Idealize.ShloMosaic

/-- The reference's first edge array is the kernel side's. -/
theorem gathered_eq (x0 : FVec Ideal Cert.KernelIdeal.S50000x64 .f32) (x5 : IVec Cert.KernelIdeal.S1600000 32) :
    Cert.ReferenceIdeal.Read.val_main_v6 (F := Ideal) x0 x5 = Cert.KernelIdeal.Entry.gathered x0 x5 := rfl

/-- The reference's second edge array is the kernel side's. -/
theorem nbGathered_eq (x0 : FVec Ideal Cert.KernelIdeal.S50000x64 .f32) (x5 x6 : IVec Cert.KernelIdeal.S1600000 32) :
    Cert.ReferenceIdeal.Read.val_main_v16 (F := Ideal) x0 x5 x6 = Cert.KernelIdeal.Entry.nbGathered x0 x5 x6 := rfl

end Cert.EdgeArrays

end
-- ==== Proof.lean ====
/-
  A two-layer perceptron over 1,600,000 edge rows, computed blockwise on two separate edge arrays, against the same
  perceptron computed on the two arrays joined.

  Both programs first build two arrays with one row per edge and 64 columns: the node features at the edge's source,
  and those features summed over each owner's edges and looked up at the edge's owner. The kernel then walks 250 blocks
  of 6400 rows; on each it multiplies the two row blocks by the two halves of the transposed first-layer weights, adds
  the two products and the bias, clips at zero, multiplies by the transposed second-layer weights, adds the second bias
  and clips again. The reference joins the two arrays into one of 128 columns, multiplies once by the whole transposed
  first-layer weights, and continues the same way.

  On the extended reals every float operation is the exact one and a change of float format is the identity, so the
  two programs differ in one place only: a sum of 128 products against the sum of its first 64 and its last 64 terms.
  Those agree in any commutative monoid, hence at every extended real, infinite ones included: the precondition that
  the inputs are finite is never opened. The lookups and the segment sum are the same operations on both sides and are
  carried as whole arrays.

  The pieces: `Spec` (the perceptron of one row, the whole result `EdgeMlp.edgeOut`, the split of the sum);
  `RefIsSpec` (the reference's result is `edgeOut`); `KernelBody` (what the body stores is the perceptron of the block's
  rows); `KernelEdgeArrays`, `KernelParams`, `KernelBlocks` (what the launch finds in its windows); `KernelValue` (the
  250 written blocks are the blocks of `edgeOut` and fill the array); `EdgeArrays` (the two programs' edge arrays are the
  same terms). The three frames are the generated ones; the idealization rewrote nothing, so `preserves` is `True`.
-/
import proofs.«160531_j44933947850816_1_alg».proof.Defs
import proofs.«160531_j44933947850816_1_alg».proof.Proof.Gen.Kernel
import proofs.«160531_j44933947850816_1_alg».proof.Proof.Gen.Kernel.Skeleton
import proofs.«160531_j44933947850816_1_alg».proof.Proof.Gen.Kernel.Launch
import proofs.«160531_j44933947850816_1_alg».proof.Proof.Gen.Kernel.Points
import proofs.«160531_j44933947850816_1_alg».proof.Proof.Gen.Kernel.Frame
import proofs.«160531_j44933947850816_1_alg».proof.Proof.Gen.KernelIdeal
import proofs.«160531_j44933947850816_1_alg».proof.Proof.Gen.KernelIdeal.Skeleton
import proofs.«160531_j44933947850816_1_alg».proof.Proof.Gen.KernelIdeal.Launch
import proofs.«160531_j44933947850816_1_alg».proof.Proof.Gen.KernelIdeal.Points
import proofs.«160531_j44933947850816_1_alg».proof.Proof.Gen.KernelIdeal.Frame
import proofs.«160531_j44933947850816_1_alg».proof.Proof.Gen.ReferenceIdeal
import proofs.«160531_j44933947850816_1_alg».proof.Proof.Gen.Pre_finite_inputs
import proofs.«160531_j44933947850816_1_alg».proof.Proof.Gen.KernelIdeal.Value
import proofs.«160531_j44933947850816_1_alg».proof.Proof.Gen.ReferenceIdeal.Run
import proofs.«160531_j44933947850816_1_alg».proof.Proof.Gen.ReferenceIdeal.Read
import proofs.«160531_j44933947850816_1_alg».proof.Proof.RefIsSpec
import proofs.«160531_j44933947850816_1_alg».proof.Proof.KernelValue
import proofs.«160531_j44933947850816_1_alg».proof.Proof.EdgeArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array ends at the perceptron of the edge rows (the run of
    `KernelValue`) and so does the reference's (`RefIsSpec`), of arguments that agree and of edge arrays that are the
    same terms (`EdgeArrays`). -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v29_eq, Cert.ReferenceIdeal.RefValue.result_eq, a0, a1, a2, a3, a4, a5, a6,
    Cert.EdgeArrays.gathered_eq, Cert.EdgeArrays.nbGathered_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
